-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩
abbrev S4096x1024x4 : Shape := ⟨3, ![4096, 1024, 4]⟩
abbrev S_ : Shape := ⟨0, ![]⟩
abbrev S4096x1024 : Shape := ⟨2, ![4096, 1024]⟩

abbrev nBuf : Space → Nat
  | .hbm => 13
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .hbm, ⟨5, _⟩ => ⟨S4096x1024x4, .f32⟩
  | .hbm, ⟨6, _⟩ => ⟨S_, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S4096x4096_S4096x1024x4 : S4096x4096.ShapeCasts S4096x1024x4
  reducesTo_S4096x1024x4_S4096x1024_d2 : S4096x1024x4.ReducesTo [2] S4096x1024
  h_S_ : 0 < S_.numel
  reducesTo_S4096x1024_S4096_d1 : S4096x1024.ReducesTo [1] S4096
  bcast_S_S4096 : S_.BroadcastsInDim S4096 (![] : Fin 0 → Fin S4096.rank)
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩
abbrev S4096x1024x4 : Shape := ⟨3, ![4096, 1024, 4]⟩
abbrev S_ : Shape := ⟨0, ![]⟩
abbrev S4096x1024 : Shape := ⟨2, ![4096, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .f32⟩
  | .hbm, ⟨7, _⟩ => ⟨S4096x1024x4, .f32⟩
  | .hbm, ⟨8, _⟩ => ⟨S_, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  shapeCasts_S4096x4096_S4096x1024x4 : S4096x4096.ShapeCasts S4096x1024x4
  reducesTo_S4096x1024x4_S4096x1024_d2 : S4096x1024x4.ReducesTo [2] S4096x1024
  h_S_ : 0 < S_.numel
  reducesTo_S4096x1024_S4096_d1 : S4096x1024.ReducesTo [1] S4096
  bcast_S_S4096 : S_.BroadcastsInDim S4096 (![] : Fin 0 → Fin S4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.Steps.lean ====
/-
  What one call of the kernel body leaves behind, for each of its three kinds of grid point, as a function of
  the blocks it loads. The body keeps a 1024 × 1024 accumulator between calls.

  * first step of a contraction (the accumulator is reset): the accumulator ends at `0 + a · bᵀ`, where `a`
    and `b` are the 1024 × 512 blocks of `x` and `W` the call is given;
  * a middle step: it ends at `acc + a · bᵀ`, `acc` what the previous call left;
  * the last step: the same, and the output block is written with that sum plus the bias row laid along
    every row of the block.

  Each store of the body covers the whole buffer it writes, so what a buffer holds afterwards is the last value
  stored, and a load of a buffer reads what it holds. These statements hold for any float values.
-/
import proofs.«172715_j23656679867212_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Steps

open Cert.KernelIdeal Cert.KernelIdeal.Gen

variable {F : FTy → Type} [FloatOps F]

theorem zeroOffsets : (![0, 0] : Fin 2 → Nat) = fun _ => 0 := funext fun a => by fin_cases a <;> rfl

/-- A middle step leaves `acc + a · bᵀ` in the accumulator. -/
theorem acc_middle (c : Dev nD) (i : grid0.Coords) (a3 : Memref sig .tc .vmem S1024x512 .f32) (h3 : a3.IsWhole)
    (a4 : Memref sig .tc .vmem S1024x512 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i)
    (x0 x1 : Vec F S1024x512 .f32) (x2 : Vec F S1x1024 .f32) (xs : Vec F S1024x1024 .f32) :
    sout0_B_0 c i a3 h3 a4 h4 a5 h5 a6 h6 a7 h7 hc0 hc1 x0 x1 x2 xs = k0_pay2 x0 x1 xs := by
  unfold sout0_B_0
  rw [View.read_writes_eq_canon _ _ _ (scover0_B_0 c i a3 h3 a4 h4 a5 h5 a6 h6 a7 h7 hc0 hc1 x0 x1 x2 xs)]
  unfold kernelRun0_B
  dsimp only
  sl_unfold_words
  rw [View.canon_unit_zero zeroOffsets]
  simp only [View.readAt_eq_ld, h3.read_unread, h4.read_unread, h7.read_unread,
    View.ld_unit_zero (S := S1024x512) zeroOffsets, View.ld_unit_zero (S := S1024x1024) zeroOffsets]

/-- The first step leaves `0 + a · bᵀ`: the accumulator is zeroed, read back, and added to. -/
theorem acc_first (c : Dev nD) (i : grid0.Coords) (a3 : Memref sig .tc .vmem S1024x512 .f32) (h3 : a3.IsWhole)
    (a4 : Memref sig .tc .vmem S1024x512 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i)
    (x0 x1 : Vec F S1024x512 .f32) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) zeroOffsets, View.readCov_unit_zero (S := S1024x1024) _ zeroOffsets]
  simp only [View.readAt_eq_ld, h3.read_unread, h4.read_unread, View.ld_unit_zero (S := S1024x512) zeroOffsets]

/-- The last step leaves `acc + a · bᵀ` in the accumulator too, -/
theorem acc_last (c : Dev nD) (i : grid0.Coords) (a3 : Memref sig .tc .vmem S1024x512 .f32) (h3 : a3.IsWhole)
    (a4 : Memref sig .tc .vmem S1024x512 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 x1 : Vec F S1024x512 .f32) (x2 : Vec F S1x1024 .f32) (xs : Vec F S1024x1024 .f32) :
    sout0_C_0 c i a3 h3 a4 h4 a5 h5 a6 h6 a7 h7 hc0 hc1 x0 x1 x2 xs = k0_pay2 x0 x1 xs := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero zeroOffsets]
  simp only [View.readAt_eq_ld, h3.read_unread, h4.read_unread, h7.read_unread,
    View.ld_unit_zero (S := S1024x512) zeroOffsets, View.ld_unit_zero (S := S1024x1024) zeroOffsets]

/-- and writes that sum plus the bias row into the output block. -/
theorem out_last (c : Dev nD) (i : grid0.Coords) (a3 : Memref sig .tc .vmem S1024x512 .f32) (h3 : a3.IsWhole)
    (a4 : Memref sig .tc .vmem S1024x512 .f32) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 x1 : Vec F S1024x512 .f32) (x2 : Vec F S1x1024 .f32) (xs : Vec F S1024x1024 .f32) :
    out0_C_3 c i a3 h3 a4 h4 a5 h5 a6 h6 a7 h7 hc0 hc1 x0 x1 x2 xs = k0_pay3 (k0_pay2 x0 x1 xs) x2 := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero zeroOffsets, View.readCov_unit_zero (S := S1024x1024) _ zeroOffsets]
  simp only [View.readAt_eq_ld, h3.read_unread, h4.read_unread, h5.read_unread, h7.read_unread,
    View.ld_unit_zero (S := S1024x512) zeroOffsets, View.ld_unit_zero (S := S1024x1024) zeroOffsets,
    View.ld_unit_zero (S := S1x1024) zeroOffsets]

end Cert.KernelIdeal.Steps

end
-- ==== Proof.DotBlocks.lean ====
/-
  The dot product of a row of `x` with a row of `W`, cut into consecutive blocks of 512 terms.

  For two 4096 × 4096 arrays of extended reals and a row `r` of the first and a row `c` of the second,
  `term x W r c l` is the `l`-th product `x[r, l] · W[c, l]` (the column read modulo 4096, so that the
  term is defined at every natural number), and `partialDot x W r c n` is the sum of the first `n` terms.
  Three facts: the empty partial sum is zero; the partial sum over `512 · (k + 1)` terms is the one over
  `512 · k` terms plus the 512 terms of block `k`; and the partial sum over all 4096 terms is the sum over
  the columns. Only commutativity and associativity of addition on the extended reals are used, so nothing
  here needs the entries to be finite.

  `linear x W b` is the array `x · Wᵀ + b`: entry `(r, c)` is the full dot product plus `b[c]`.
-/
import Idealize.ShloMosaic.PureOps.Ideal
import Idealize.ShloMosaic.Lib.ValueIdx

noncomputable section

open scoped BigOperators

namespace Cert.Linear

open Idealize.ShloMosaic Idealize.ShloMosaic.ValueIdx

/-- A square array of side 4096 of extended reals. -/
abbrev Mat : Type := (⟨2, ![4096, 4096]⟩ : Shape).Idx → EReal
/-- A vector of 4096 extended reals. -/
abbrev Row : Type := (⟨1, ![4096]⟩ : Shape).Idx → EReal

/-- A natural number read as a column, modulo 4096. -/
def col (l : ℕ) : Fin 4096 := ⟨l % 4096, Nat.mod_lt _ (by norm_num)⟩

theorem col_of_lt (l : Fin 4096) : col l.val = l := Fin.ext (Nat.mod_eq_of_lt l.isLt)

/-- The `l`-th product of row `r` of `x` and row `c` of `W`. -/
def term (x W : Mat) (r c : Fin 4096) (l : ℕ) : EReal := x (ix2 r (col l)) * W (ix2 c (col l))

/-- The sum of the first `n` products. -/
def partialDot (x W : Mat) (r c : Fin 4096) (n : ℕ) : EReal := ∑ l ∈ Finset.range n, term x W r c l

theorem partialDot_zero (x W : Mat) (r c : Fin 4096) : partialDot x W r c 0 = 0 := Finset.sum_range_zero _

/-- One more block of 512 terms. -/
theorem partialDot_block (x W : Mat) (r c : Fin 4096) (k : ℕ) :
    partialDot x W r c (512 * (k + 1))
      = partialDot x W r c (512 * k) + ∑ j : Fin 512, term x W r c (512 * k + j.val) := by
  unfold partialDot
  rw [show 512 * (k + 1) = 512 * k + 512 from by ring, Finset.sum_range_add,
    Fin.sum_univ_eq_sum_range (fun j => term x W r c (512 * k + j)) 512]

/-- All 4096 terms: the sum over the columns. -/
theorem partialDot_full (x W : Mat) (r c : Fin 4096) :
    partialDot x W r c 4096 = ∑ l : Fin 4096, x (ix2 r l) * W (ix2 c l) := by
  unfold partialDot
  rw [← Fin.sum_univ_eq_sum_range (fun l => term x W r c l) 4096]
  exact Finset.sum_congr rfl fun l _ => by unfold term; rw [col_of_lt]

/-- `x · Wᵀ + b`. -/
def linear (x W : Mat) (b : Row) : Mat := fun i => partialDot x W (i 0) (i 1) 4096 + b (ix1 (i 1))

theorem linear_apply (x W : Mat) (b : Row) (r c : Fin 4096) :
    linear x W b (ix2 r c) = partialDot x W r c 4096 + b (ix1 c) := rfl

end Cert.Linear

end
-- ==== Proof.Blocks.lean ====
/-
  Where the blocks the kernel body is given sit in the whole arrays. The grid has 4 × 4 × 8 points, numbered
  `t = 32·mb + 8·nb + k`; at point `t` the body is given

  * rows `1024·mb …`, columns `512·k …` of `x` (a 1024 × 512 block),
  * rows `1024·nb …`, columns `512·k …` of `W`,
  * entries `1024·nb …` of the bias, which was first reshaped from 4096 numbers to one row of 4096,

  and it writes rows `1024·mb …`, columns `1024·nb …` of the result. The relations between `t` and the block
  indices are decided once over the 128 points; an entry of a block is then the entry of the array at
  (block index × block size + position in the block) on each axis. Rows and columns are written with
  `Cert.Linear.col`, a natural number read as an index below 4096.
-/
import proofs.«172715_j23656679867212_1_alg».proof.Proof.Gen.KernelIdeal.Frame
import proofs.«172715_j23656679867212_1_alg».proof.Proof.DotBlocks
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem

namespace Cert.KernelIdeal.Blocks

open Cert.KernelIdeal Cert.KernelIdeal.Gen Idealize.ShloMosaic.ValueIdx Cert.Linear

variable {F : FTy → Type} [FloatOps F]
variable (m : (ℓ : Loc nD τ sig) → Buf (Elt F) ℓ)

/-- The block indices of the four windows at point `t = 32·mb + 8·nb + k`. -/
theorem blockIndex : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-- The row of the arrays `x` and of the result that row `p` of a block at point `n` is. -/
def rowAt (n : ℕ) (p : Fin 1024) : Fin 4096 := col (1024 * (n / 32) + p.val)
/-- The row of `W`, entry of the bias and column of the result that `q` of a block at point `n` is. -/
def colAt (n : ℕ) (q : Fin 1024) : Fin 4096 := col (1024 * (n / 8 % 4) + q.val)

/-- The block of `x` at point `t`, read at `(p, j)`. -/
theorem xBlock_apply (c : Dev nD) (t : Fin cfg0.N) (p : Fin 1024) (j : Fin 512) :
    (iblk m c 0 t : Vec F S1024x512 .f32) (ix2 p j)
      = V m c main_arg0 (ix2 (rowAt t.val p) (col (512 * (t.val % 8) + j.val))) := by
  obtain ⟨e0, e1, -⟩ := blockIndex t
  have hN : t.val < 128 := lt_of_lt_of_eq t.isLt N_0
  unfold iblk
  rw [View.read_apply]
  show V m c main_arg0 _ = V m c main_arg0 _
  congr 1
  funext a
  apply Fin.ext
  match a with
  | ⟨0, _⟩ =>
    show win0_0.index t 0 * 1024 + 1 * p.val = (1024 * (t.val / 32) + p.val) % 4096
    have := p.isLt; rw [e0]; omega
  | ⟨1, _⟩ =>
    show win0_0.index t 1 * 512 + 1 * j.val = (512 * (t.val % 8) + j.val) % 4096
    have := j.isLt; rw [e1]; omega

/-- The block of `W` at point `t`, read at `(q, j)`. -/
theorem wBlock_apply (c : Dev nD) (t : Fin cfg0.N) (q : Fin 1024) (j : Fin 512) :
    (iblk m c 1 t : Vec F S1024x512 .f32) (ix2 q j)
      = V m c main_arg1 (ix2 (colAt t.val q) (col (512 * (t.val % 8) + j.val))) := by
  obtain ⟨-, -, e0, e1, -⟩ := blockIndex t
  have hN : t.val < 128 := lt_of_lt_of_eq t.isLt N_0
  unfold iblk
  rw [View.read_apply]
  show V m c main_arg1 _ = V m c main_arg1 _
  congr 1
  funext a
  apply Fin.ext
  match a with
  | ⟨0, _⟩ =>
    show win0_1.index t 0 * 1024 + 1 * q.val = (1024 * (t.val / 8 % 4) + q.val) % 4096
    have := q.isLt; rw [e0]; omega
  | ⟨1, _⟩ =>
    show win0_1.index t 1 * 512 + 1 * j.val = (512 * (t.val % 8) + j.val) % 4096
    have := j.isLt; rw [e1]; omega

/-- The row of 4096 numbers the region finds as its third operand is the bias, reshaped. -/
theorem biasRow_eq (c : Dev nD) :
    (V m c main_v0 : S1x4096.Idx → Elt F .f32) = shapeCast S1x4096 (m ((c : Thread nD τ).loc main_arg2)) shapeCasts_S4096_S1x4096 := by
  show StableHlo.after hostOps0 (fun b => m (c, b)) (Proc.devRef .tc main_v0) = _
  after_results
  rfl

/-- The block of the bias row at point `t`, read at `(0, q)`. -/
theorem biasBlock_apply (c : Dev nD) (t : Fin cfg0.N) (q : Fin 1024) :
    (iblk m c 2 t : Vec F S1x1024 .f32) (ix2 (0 : Fin 1) q)
      = m ((c : Thread nD τ).loc main_arg2) (ix1 (colAt t.val q)) := by
  obtain ⟨-, -, -, -, e0, e1, -⟩ := blockIndex t
  have hN : t.val < 128 := lt_of_lt_of_eq t.isLt N_0
  have hq := q.isLt
  unfold iblk
  rw [View.read_apply]
  show V m c main_v0 _ = _
  rw [biasRow_eq]
  refine shapeCast_apply _ shapeCasts_S4096_S1x4096 _ (ix1 (colAt t.val q)) ?_
  rw [Shape.rowMajor_val_one, Shape.rowMajor_val_two]
  show (1024 * (t.val / 8 % 4) + q.val) % 4096 = (win0_2.index t 0 * 1 + 1 * 0) * 4096 + (win0_2.index t 1 * 1024 + 1 * q.val)
  rw [e0, e1]; omega

end Cert.KernelIdeal.Blocks

end
-- ==== Proof.BodyArithmetic.lean ====
/-
  The arithmetic of the kernel body at one entry, over the extended reals.

  * The value that resets the accumulator is `0` everywhere.
  * One accumulation step: entry `(p, q)` of `acc + a · bᵀ` is `acc[p, q]` plus the sum over the 512 columns `j`
    of `a[p, j] · b[q, j]`. (The body narrows `a` and `b` to a 16-bit format before multiplying; on extended
    reals a change of format is the identity. The product is taken into a zero accumulator, which adds nothing.)
  * The final value: entry `(p, q)` of the accumulator plus entry `q` of the bias row.
-/
import proofs.«172715_j23656679867212_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BodyArithmetic

open Cert.KernelIdeal Cert.KernelIdeal.Gen
open Idealize.ShloMosaic Idealize.ShloMosaic.ValueIdx

/-- The block product's contraction, as printed: rows of both operands against each other. -/
local notation "D" => dot_S1024x512_S1024x512_S1024x1024_1_1_0_0_n_n

/-- Entry `(p, q)` of the product reads row `p` of the left block and row `q` of the right one, both at the contracted column. -/
theorem lhs0 (i : S1024x1024.Idx) (q : (D).contr.Idx) : ((D).lhsIdx i q 0).val = (i 0).val := by
  unfold DotDims.lhsIdx
  rw [dif_neg (show ¬(0 : Fin S1024x512.rank) ∈ (D).lhsBatch by decide), dif_pos (show (0 : Fin S1024x512.rank) ∈ (D).lhsNonContracting by decide)]
  rfl
theorem lhs1 (i : S1024x1024.Idx) (q : (D).contr.Idx) : ((D).lhsIdx i q 1).val = (q ⟨0, by decide⟩).val :=
  (D).lhsIdx_val_of_single rfl i q
theorem rhs0 (i : S1024x1024.Idx) (q : (D).contr.Idx) : ((D).rhsIdx i q 0).val = (i 1).val := by
  unfold DotDims.rhsIdx
  rw [dif_neg (show ¬(0 : Fin S1024x512.rank) ∈ (D).rhsBatch by decide), dif_pos (show (0 : Fin S1024x512.rank) ∈ (D).rhsNonContracting by decide)]
  rfl
theorem rhs1 (i : S1024x1024.Idx) (q : (D).contr.Idx) : ((D).rhsIdx i q 1).val = (q ⟨0, by decide⟩).val :=
  (D).rhsIdx_val_of_single rfl i q

/-- The product of two blocks into a zero accumulator, at an entry: a sum over the 512 columns. -/
theorem blockProduct_apply (a b : FVec Ideal S1024x512 .bf16) (p q : Fin 1024) :
    matmul (D) none a b (constant S1024x1024 .f32 0x00000000#32) (ix2 p q) = ∑ j : Fin 512, a (ix2 p j) * b (ix2 q j) := by
  simp only [matmul]
  rw [Ideal.matmul_constant_zero_apply, ← Equiv.sum_comp (contrEquiv1 (D) 512 rfl rfl).symm]
  refine Finset.sum_congr rfl fun k _ => ?_
  have hk := contrEquiv1_symm_val (D) 512 rfl rfl k
  have el : (D).lhsIdx (ix2 p q) ((contrEquiv1 (D) 512 rfl rfl).symm k) = ix2 p k := funext fun a => Fin.ext (by
    match a with
    | ⟨0, _⟩ => exact lhs0 _ _
    | ⟨1, _⟩ => exact (lhs1 _ _).trans hk)
  have er : (D).rhsIdx (ix2 p q) ((contrEquiv1 (D) 512 rfl rfl).symm k) = ix2 q k := funext fun a => Fin.ext (by
    match a with
    | ⟨0, _⟩ => exact rhs0 _ _
    | ⟨1, _⟩ => exact (rhs1 _ _).trans hk)
  rw [el, er]

/-- The reset value is zero everywhere. -/
theorem reset_apply (j : S1024x1024.Idx) : k0_pay1 (F := Ideal) j = 0 := by
  unfold k0_pay1
  rw [shapeCast_self]
  exact Ideal.ofBits_zero_f32

/-- One accumulation step at an entry. -/
theorem step_apply (v3 v5 : Vec Ideal S1024x512 .f32) (v7 : Vec Ideal S1024x1024 .f32) (p q : Fin 1024) :
    k0_pay2 (F := Ideal) v3 v5 v7 (ix2 p q) = v7 (ix2 p q) + ∑ j : Fin 512, v3 (ix2 p j) * v5 (ix2 q j) := by
  unfold k0_pay2
  rw [shapeCast_self, addf_apply, blockProduct_apply]
  rfl

/-- The value written to the output block at an entry. -/
theorem withBias_apply (v16 : Vec Ideal S1024x1024 .f32) (v17 : Vec Ideal S1x1024 .f32) (p q : Fin 1024) :
    k0_pay3 (F := Ideal) v16 v17 (ix2 p q) = v16 (ix2 p q) + v17 (ix2 (0 : Fin 1) q) := by
  unfold k0_pay3
  rw [shapeCast_self, addf_apply, broadcastTo_apply v17 broadcasts_S1x1024_S1024x1024 (ix2 p q) (ix2 (0 : Fin 1) q) (fun a => by
    match a with
    | ⟨0, _⟩ => rfl
    | ⟨1, _⟩ => rfl)]

end Cert.KernelIdeal.BodyArithmetic

end
-- ==== Proof.Accumulate.lean ====
/-
  The accumulator across the grid, over the extended reals.

  Point `t = 32·mb + 8·nb + k` is step `k` of the contraction for output block `(mb, nb)`. After the body has
  run at point `t`, entry `(p, q)` of the accumulator is the sum of the first `512·(k + 1)` products
  `x[r, l] · W[s, l]`, where `r = 1024·mb + p` and `s = 1024·nb + q`: by induction on the point, a first step
  starting from the empty sum and every other step adding the next 512 terms to what the previous point left.
  At a last step (`k = 7`) all 4096 terms are in, and the output block receives that full dot product plus the
  bias entry `b[s]`. Only the monoid laws of addition are used; no entry needs to be finite.
-/
import proofs.«172715_j23656679867212_1_alg».proof.Proof.Steps
import proofs.«172715_j23656679867212_1_alg».proof.Proof.Blocks
import proofs.«172715_j23656679867212_1_alg».proof.Proof.BodyArithmetic
import proofs.«172715_j23656679867212_1_alg».proof.Proof.DotBlocks

noncomputable section

open scoped BigOperators
open Idealize.ShloMosaic Idealize.ShloMosaic.TcCoe Idealize.SL.Sem

namespace Cert.KernelIdeal.Accumulate

open Cert.KernelIdeal Cert.KernelIdeal.Gen Idealize.ShloMosaic.ValueIdx Cert.Linear
open Cert.KernelIdeal.Blocks Cert.KernelIdeal.BodyArithmetic

variable (m : (ℓ : Loc nD τ sig) → Buf (Elt Ideal) ℓ)

/-- The blocks of `x` and of `W` that point `t` is given, as arrays of extended reals. -/
abbrev xBlk (c : Dev nD) (t : Fin cfg0.N) : Vec Ideal S1024x512 .f32 := iblk m c 0 t
abbrev wBlk (c : Dev nD) (t : Fin cfg0.N) : Vec Ideal S1024x512 .f32 := iblk m c 1 t

/-- The 512 products a step at point `t` adds at entry `(p, q)`, read off the blocks it is given: they are
    terms `512·k …` of the dot product of row `r` of `x` and row `s` of `W`. -/
theorem stepTerms (c : Dev nD) (t : Fin cfg0.N) (p q : Fin 1024) :
    ∑ j : Fin 512, xBlk m c t (ix2 p j) * wBlk m c t (ix2 q j)
      = ∑ j : Fin 512, term (V m c main_arg0) (V m c main_arg1) (rowAt t.val p) (colAt t.val q) (512 * (t.val % 8) + j.val) :=
  Finset.sum_congr rfl fun j _ =>
    congrArg₂ (fun a b : EReal => a * b) (xBlock_apply m c t p j) (wBlock_apply m c t q j)

/-- What a first step (`k = 0`) leaves in the accumulator, as one array: `0 + a · bᵀ`. -/
theorem first_array (c : Dev nD) (t : Fin cfg0.N) (h0 : t.val % 8 = 0) :
    (outsAt0 m c t.val t.isLt).2 = k0_pay2 (F := Ideal) (iblk m c 0 t) (iblk m c 1 t) (k0_pay1 (F := Ideal)) := by
  have h1 : ¬t.val % 8 = 7 := by omega
  rw [outsAt0_A m c t h0 h1]
  dsimp only
  exact Steps.acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- What any other step leaves, as one array: `acc + a · bᵀ`, `acc` what the point before left. -/
theorem next_array (c : Dev nD) (t : Fin cfg0.N) (h0 : ¬t.val % 8 = 0) :
    (outsAt0 m c t.val t.isLt).2 = k0_pay2 (F := Ideal) (iblk m c 0 t) (iblk m c 1 t) (outsAt0 m c (t.val - 1) (Nat.lt_of_le_of_lt (Nat.sub_le _ _) t.isLt)).2 := by
  by_cases h1 : t.val % 8 = 7
  · rw [outsAt0_C m c t h0 h1]
    dsimp only
    exact Steps.acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
  · rw [outsAt0_B m c t h0 h1]
    dsimp only
    exact Steps.acc_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- What a last step (`k = 7`) writes to the output block, as one array: its accumulator plus the bias row. -/
theorem out_array (c : Dev nD) (t : Fin cfg0.N) (h7 : t.val % 8 = 7) :
    (outsAt0 m c t.val t.isLt).1 = k0_pay3 (F := Ideal) (outsAt0 m c t.val t.isLt).2 (iblk m c 2 t) := by
  have h0 : ¬t.val % 8 = 0 := by omega
  rw [outsAt0_C m c t h0 h7]
  dsimp only
  rw [Steps.acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2]
  exact Steps.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h7) (iblk m c 0 t) (iblk m c 1 t) (iblk m c 2 t) (outsAt0 m c (t.val - 1) (Nat.lt_of_le_of_lt (Nat.sub_le _ _) t.isLt)).2

/-- A first step leaves the first 512 terms. -/
theorem acc_first (c : Dev nD) (t : Fin cfg0.N) (h0 : t.val % 8 = 0) (p q : Fin 1024) :
    (outsAt0 m c t.val t.isLt).2 (ix2 p q)
      = 0 + ∑ j : Fin 512, xBlk m c t (ix2 p j) * wBlk m c t (ix2 q j) :=
  (congrFun (first_array m c t h0) (ix2 p q)).trans
    ((step_apply (iblk m c 0 t) (iblk m c 1 t) (k0_pay1 (F := Ideal)) p q).trans
      (congrArg (· + ∑ j : Fin 512, xBlk m c t (ix2 p j) * wBlk m c t (ix2 q j)) (reset_apply (ix2 p q))))

/-- Any other step adds its 512 terms to what the point before left. -/
theorem acc_next (c : Dev nD) (t : Fin cfg0.N) (h0 : ¬t.val % 8 = 0) (p q : Fin 1024) :
    (outsAt0 m c t.val t.isLt).2 (ix2 p q)
      = (outsAt0 m c (t.val - 1) (Nat.lt_of_le_of_lt (Nat.sub_le _ _) t.isLt)).2 (ix2 p q)
        + ∑ j : Fin 512, xBlk m c t (ix2 p j) * wBlk m c t (ix2 q j) :=
  (congrFun (next_array m c t h0) (ix2 p q)).trans (step_apply (iblk m c 0 t) (iblk m c 1 t) (outsAt0 m c (t.val - 1) (Nat.lt_of_le_of_lt (Nat.sub_le _ _) t.isLt)).2 p q)

/-- THE INVARIANT: after point `n` the accumulator holds the first `512·(n mod 8 + 1)` terms. -/
theorem acc_eq (c : Dev nD) (n : ℕ) : ∀ (h : n < cfg0.N) (p q : Fin 1024),
    (outsAt0 m c n h).2 (ix2 p q)
      = partialDot (V m c main_arg0) (V m c main_arg1) (rowAt n p) (colAt n q) (512 * (n % 8 + 1)) := by
  have first : ∀ (n : ℕ) (h : n < cfg0.N), n % 8 = 0 → ∀ p q : Fin 1024, (outsAt0 m c n h).2 (ix2 p q)
      = partialDot (V m c main_arg0) (V m c main_arg1) (rowAt n p) (colAt n q) (512 * (n % 8 + 1)) := by
    intro n h h0 p q
    refine (acc_first m c ⟨n, h⟩ h0 p q).trans ?_
    rw [stepTerms m c ⟨n, h⟩ p q]
    show 0 + ∑ j : Fin 512, term (V m c main_arg0) (V m c main_arg1) (rowAt n p) (colAt n q) (512 * (n % 8) + j.val) = _
    rw [partialDot_block, h0, Nat.mul_zero, partialDot_zero]
  induction n with
  | zero => exact fun h p q => first 0 h rfl p q
  | succ n ih =>
    intro h p q
    by_cases h0 : (n + 1) % 8 = 0
    · exact first (n + 1) h h0 p q
    · refine (acc_next m c ⟨n + 1, h⟩ h0 p q).trans ?_
      have er : rowAt n p = rowAt (n + 1) p := by unfold rowAt; congr 2; omega
      have ec : colAt n q = colAt (n + 1) q := by unfold colAt; congr 2; omega
      have ek : n % 8 + 1 = (n + 1) % 8 := by omega
      rw [stepTerms m c ⟨n + 1, h⟩ p q]
      show (outsAt0 m c n (Nat.lt_of_succ_lt h)).2 (ix2 p q) + ∑ j : Fin 512, term (V m c main_arg0) (V m c main_arg1) (rowAt (n + 1) p) (colAt (n + 1) q) (512 * ((n + 1) % 8) + j.val) = _
      rw [ih (Nat.lt_of_succ_lt h) p q, er, ec, ek, partialDot_block]

/-- At a last step the output block receives the full dot product plus the bias entry. -/
theorem out_eq (c : Dev nD) (t : Fin cfg0.N) (h7 : t.val % 8 = 7) (p q : Fin 1024) :
    (outsAt0 m c t.val t.isLt).1 (ix2 p q)
      = partialDot (V m c main_arg0) (V m c main_arg1) (rowAt t.val p) (colAt t.val q) 4096
        + m ((c : Thread nD τ).loc main_arg2) (ix1 (colAt t.val q)) := by
  refine (congrFun (out_array m c t h7) (ix2 p q)).trans ?_
  refine (withBias_apply (outsAt0 m c t.val t.isLt).2 (iblk m c 2 t) p q).trans ?_
  rw [acc_eq m c t.val t.isLt p q, h7, biasBlock_apply m c t q]

end Cert.KernelIdeal.Accumulate

end
-- ==== Proof.ResultArray.lean ====
/-
  The array the kernel region leaves: `x · Wᵀ + b`.

  The result's 1024 × 1024 blocks are written back at the last step of each contraction (the points
  `t ≡ 7 mod 8`), block `(mb, nb)` at point `32·mb + 8·nb + 7`. What such a point writes back is its block of
  the one array `x · Wᵀ + b` (the accumulator's invariant at a last step), and the sixteen blocks tile the
  array, so after the region the whole array is `x · Wᵀ + b`.
-/
import proofs.«172715_j23656679867212_1_alg».proof.Proof.Accumulate

noncomputable section

open Idealize.ShloMosaic Idealize.ShloMosaic.TcCoe Idealize.SL.Sem
open Idealize.ShloMosaic.Pipeline (Dat)

namespace Cert.KernelIdeal.ResultArray

open Cert.KernelIdeal Cert.KernelIdeal.Gen Idealize.ShloMosaic.ValueIdx Cert.Linear
open Cert.KernelIdeal.Blocks Cert.KernelIdeal.Accumulate

variable (m : (ℓ : Loc nD τ sig) → Buf (Elt Ideal) ℓ)

/-- `x · Wᵀ + b` of the argument arrays as the region finds them, as contents of the result array. -/
def affine (c : Dev nD) : Buf (Elt Ideal) ((c : Thread nD τ).loc main_v1) :=
  linear (V m c main_arg0) (V m c main_arg1) (m ((c : Thread nD τ).loc main_arg2))

/-- What a last step writes back is its block of `x · Wᵀ + b`. -/
theorem flushed_eq (c : Dev nD) (t : Fin cfg0.N) (hf : (cfg0.win 3).flush t = true) :
    (dats m 0 c).flushed 3 t = ((cfg0.win 3).blk t).view.read (Elt Ideal) (affine m c) := by
  have h7 : t.val % 8 = 7 := (flush0_3 t).mp hf
  obtain ⟨-, -, -, -, -, -, e0, e1⟩ := blockIndex t
  have hN : t.val < 128 := lt_of_lt_of_eq t.isLt N_0
  show (cfg0.win 3).cut (grid0.coords t) ((dats m 0 c).after 3 t) = _
  rw [after0_3]
  funext y
  obtain ⟨p, q, rfl⟩ : ∃ (p q : Fin 1024), y = ix2 p q := ⟨y 0, y 1, eq_ix2 y⟩
  rw [View.read_apply]
  show (outsAt0 m c t.val t.isLt).1 (ix2 p q) = affine m c (((cfg0.win 3).blk t).view.emb (ix2 p q))
  rw [out_eq m c t h7 p q]
  have he : ((cfg0.win 3).blk t).view.emb (ix2 p q) = ix2 (rowAt t.val p) (colAt t.val q) := by
    funext a
    apply Fin.ext
    match a with
    | ⟨0, _⟩ =>
      show win0_3.index t 0 * 1024 + 1 * p.val = (1024 * (t.val / 32) + p.val) % 4096
      have := p.isLt; rw [e0]; omega
    | ⟨1, _⟩ =>
      show win0_3.index t 1 * 1024 + 1 * q.val = (1024 * (t.val / 8 % 4) + q.val) % 4096
      have := q.isLt; rw [e1]; omega
  rw [he]
  rfl

/-- An entry of the result array is in point `t`'s block iff each coordinate is in the block's range. -/
theorem mem_blk (t : Fin cfg0.N) (i : S4096x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1).slice (win0_3.rect t)).set ↔ _
  rw [View.set_slice_whole, Rect.mem_set_unit]
  exact Iff.rfl

/-- Every entry `(r, s)` is in the block written back at point `32·(r / 1024) + 8·(s / 1024) + 7`. -/
theorem cover (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  have hn : 32 * ((i 0).val / 1024) + 8 * ((i 1).val / 1024) + 7 < cfg0.N := by
    rw [show cfg0.N = 128 from N_0]; omega
  refine ⟨⟨32 * ((i 0).val / 1024) + 8 * ((i 1).val / 1024) + 7, hn⟩, (flush0_3 _).mpr (by dsimp only; omega), ?_⟩
  rw [mem_blk]
  obtain ⟨-, -, -, -, -, -, e0, e1⟩ := blockIndex ⟨32 * ((i 0).val / 1024) + 8 * ((i 1).val / 1024) + 7, hn⟩
  intro a
  match a with
  | ⟨0, _⟩ =>
    show win0_3.index _ 0 * 1024 ≤ (i 0).val ∧ (i 0).val < win0_3.index _ 0 * 1024 + 1024
    rw [e0]; dsimp only; omega
  | ⟨1, _⟩ =>
    show win0_3.index _ 1 * 1024 ≤ (i 1).val ∧ (i 1).val < win0_3.index _ 1 * 1024 + 1024
    rw [e1]; dsimp only; omega

/-- After the region the result array is `x · Wᵀ + b`. -/
theorem final (c : Dev nD) : (dats m 0 c).arrAt 3 cfg0.N = affine m c :=
  (dats m 0 c).arrAt_eq_of_cover 3 (affine m c) (flushed_eq m c) cover

end Cert.KernelIdeal.ResultArray

end
-- ==== Proof.Pooled.lean ====
/-
  What both programs do to the 4096 × 4096 array `y = x · Wᵀ + b` after computing it: every row is cut into
  1024 runs of four consecutive entries, each run is replaced by its maximum (a fold of `max` from `-∞`), the
  1024 maxima of a row are added up from `0`, and the sum is multiplied by `1/2`. The two programs apply
  exactly these operations with the same constants, so this file only names their composition as one function
  of `y`; nothing about it is ever computed.
-/
import Idealize.ShloMosaic.PureOps
import Idealize.ShloMosaic.PureOps.Ideal

noncomputable section

namespace Cert.Linear

open Idealize.ShloMosaic

abbrev Sq : Shape := ⟨2, ![4096, 4096]⟩
abbrev Runs : Shape := ⟨3, ![4096, 1024, 4]⟩
abbrev Maxima : Shape := ⟨2, ![4096, 1024]⟩
abbrev Rows : Shape := ⟨1, ![4096]⟩
abbrev Scalar0 : Shape := ⟨0, ![]⟩

/-- Half the sum, along each row, of the maxima of the runs of four consecutive entries. -/
def pooledHalfSum (hcast : Sq.ShapeCasts Runs) (hmax : Runs.ReducesTo [2] Maxima) (hpos : 0 < Scalar0.numel)
    (hsum : Maxima.ReducesTo [1] Rows) (hb : Scalar0.BroadcastsInDim Rows (![] : Fin 0 → Fin Rows.rank))
    (y : FVec Ideal Sq .f32) : FVec Ideal Rows .f32 :=
  mulf (Host.reduceAdd (Host.reduce FloatOps.maximumf (shapeCast Runs y hcast) (constant Scalar0 .f32 0xFF800000#32) hmax hpos)
      (constant Scalar0 .f32 0x00000000#32) hsum hpos)
    (broadcastInDim Rows ![] hb (constant Scalar0 .f32 0x3F000000#32))

end Cert.Linear

end
-- ==== Proof.KernelRun.lean ====
/-
  The whole kernel program, over the extended reals: the region leaves `x · Wᵀ + b` in its result array, and the
  host operations after the region (a reshape into runs of four, the maximum of each run, the sum of the maxima
  along each row, the product with `1/2`) apply the pooling tail to it. So every execution ends with the
  program's result at the pooling tail of `x · Wᵀ + b` of the argument arrays, and the arguments unchanged.
-/
import proofs.«172715_j23656679867212_1_alg».proof.Proof.ResultArray
import proofs.«172715_j23656679867212_1_alg».proof.Proof.Pooled
import Idealize.ShloMosaic.Lib.StableHlo.Run

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.Linear Cert.KernelIdeal.ResultArray

variable (m : (ℓ : Loc nD τ sig) → Buf (Elt Ideal) ℓ) (ρ : Dev nD → PrngReg)

/-- The region finds `x` and `W` as launched, so its result array is `x · Wᵀ + b` of the launch contents. -/
theorem affine_eq (c : Dev nD) :
    affine m c = linear (m ((c : Thread nD τ).loc main_arg0)) (m ((c : Thread nD τ).loc main_arg1)) (m ((c : Thread nD τ).loc main_arg2)) := by
  unfold affine
  rw [V_main_arg0, V_main_arg1]

/-- What the operations after the region leave in the program's result: the pooling tail of the region's array. -/
theorem result_eq (c : Dev nD) :
    Pipeline.afterTail₀ cfgs (dats m) 0 (V0 m) [hostOps1] c main_v6
      = pooledHalfSum shapeCasts_S4096x4096_S4096x1024x4 reducesTo_S4096x1024x4_S4096x1024_d2 h_S_
          reducesTo_S4096x1024_S4096_d1 bcast_S_S4096 (affine m c) := by
  unfold Pipeline.afterTail₀
  show StableHlo.after hostOps1 _ (Proc.devRef .tc main_v6) = _
  after_results
  rw [show Pipeline.withArrays (cfgs 0).spec c (V0 m c) (fun w => (dats m 0 c).arrAt w (cfgs 0).N) (Proc.devRef .tc main_v1) = affine m c from
    (Pipeline.withArrays_arr spec0 launch0.win.arr_inj c _ _ 3).trans (final m c)]
  rfl

/-- The run, read: the result at the pooling tail of `x · Wᵀ + b`, the three arguments unchanged. -/
theorem run : θ_run defs (onTc (τ := τ) (main (F := Ideal))) ⟨m, fun _ => 0, ρ⟩ fun r => ∀ c : Dev nD,
      r.2.mem ((c : Thread nD τ).loc main_v6)
        = pooledHalfSum shapeCasts_S4096x4096_S4096x1024x4 reducesTo_S4096x1024x4_S4096x1024_d2 h_S_
            reducesTo_S4096x1024_S4096_d1 bcast_S_S4096
            (linear (m ((c : Thread nD τ).loc main_arg0)) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v6 (Pipeline.mem_restRefs_of main_v6 (by decide) (by decide))).trans
        ((result_eq m c).trans (congrArg _ (affine_eq m c))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Whole

end
-- ==== Proof.RefLinear.lean ====
/-
  The reference computes `x · Wᵀ + b` in four host operations: a `dot_general` contracting the second axis of
  both operands, two broadcasts that lay `b` along every row, and an addition. Read at an entry `(r, c)` this is
  the sum over all 4096 columns `l` of `x[r, l] · W[c, l]`, plus `b[c]`: the function `Cert.Linear.linear`.
  The rest of the reference is the pooling tail applied to that array.
-/
import proofs.«172715_j23656679867212_1_alg».proof.Proof.Gen.ReferenceIdeal.Run
import proofs.«172715_j23656679867212_1_alg».proof.Proof.Gen.ReferenceIdeal.Read
import proofs.«172715_j23656679867212_1_alg».proof.Proof.DotBlocks
import proofs.«172715_j23656679867212_1_alg».proof.Proof.Pooled

noncomputable section

namespace Cert.ReferenceIdeal.RefValue

open Cert.ReferenceIdeal Cert.ReferenceIdeal.Gen Cert.ReferenceIdeal.Read
open Idealize.ShloMosaic Idealize.ShloMosaic.ValueIdx Cert.Linear

/-- At entry `(r, c)` the left operand of the contraction is read at row `r`, column `l`; -/
theorem lidx_eq (r c l : Fin 4096) : lidx_main_v0 (ix2 r c) l = ix2 r l :=
  funext fun a => Fin.ext (by match a with | ⟨0, _⟩ => rfl | ⟨1, _⟩ => rfl)
/-- the right operand at row `c`, column `l`; -/
theorem ridx_eq (r c l : Fin 4096) : ridx_main_v0 (ix2 r c) l = ix2 c l :=
  funext fun a => Fin.ext (by match a with | ⟨0, _⟩ => rfl | ⟨1, _⟩ => rfl)
/-- and the bias, through its two broadcasts, at `c`. -/
theorem bidx_eq (r c : Fin 4096) : idx_main_v1 (idx_main_v2 (ix2 r c)) = ix1 c :=
  funext fun a => Fin.ext (by match a with | ⟨0, _⟩ => rfl)

/-- The array the reference pools is `x · Wᵀ + b`. -/
theorem sum_eq_linear (x W : FVec Ideal S4096x4096 .f32) (b : FVec Ideal S4096 .f32) :
    val_main_v3 (F := Ideal) x W b = linear x W b := by
  funext i
  obtain ⟨r, c, rfl⟩ : ∃ (r c : Fin 4096), i = ix2 r c := ⟨i 0, i 1, eq_ix2 i⟩
  rw [val_main_v3_apply, val_main_v0_apply, val_main_v2_apply, val_main_v1_apply, bidx_eq, linear_apply, partialDot_full]
  simp only [lidx_eq, ridx_eq]
  rfl

/-- The reference's result is the pooling tail of `x · Wᵀ + b`. -/
theorem result_eq (x W : FVec Ideal S4096x4096 .f32) (b : FVec Ideal S4096 .f32) :
    val_main_v8 (F := Ideal) x W b
      = pooledHalfSum shapeCasts_S4096x4096_S4096x1024x4 reducesTo_S4096x1024x4_S4096x1024_d2 h_S_
          reducesTo_S4096x1024_S4096_d1 bcast_S_S4096 (linear x W b) := by
  rw [← sum_eq_linear]
  rfl

end Cert.ReferenceIdeal.RefValue

end
-- ==== Proof.lean ====
/-
  The kernel computes `y = x · Wᵀ + b` for 4096 × 4096 arrays `x`, `W` and a bias `b` of 4096 numbers in one
  pipelined region over a 4 × 4 × 8 grid: output block `(mb, nb)` of 1024 × 1024 entries is accumulated over
  eight steps, each adding the product of a 1024 × 512 block of `x` with the transpose of a 1024 × 512 block of
  `W`, and at the eighth step the bias is added and the block written back. After the region the host takes, in
  every row, the maximum of each run of four consecutive entries, sums the 1024 maxima and halves the sum. The
  reference computes `y` by one contraction over all 4096 columns plus the broadcast bias, and then applies the
  same tail with the same constants.

  Over the extended reals both arrays `y` are the same function of the arguments: the kernel's eight partial
  sums of 512 products are the consecutive blocks of the reference's one sum of 4096 products, and a sum of
  extended reals does not depend on how it is grouped (addition there is a commutative monoid). No entry has
  to be finite for this, so the precondition is not used. The tails agree because they are the same function
  applied to equal arrays. The idealization rewrote nothing in the kernel, so that conjunct is trivial; the
  three frame conjuncts are the generated frame of the kernel at both instances and the reference's run.
-/
import proofs.«172715_j23656679867212_1_alg».proof.Defs
import proofs.«172715_j23656679867212_1_alg».proof.Proof.Gen.Kernel
import proofs.«172715_j23656679867212_1_alg».proof.Proof.Gen.Kernel.Frame
import proofs.«172715_j23656679867212_1_alg».proof.Proof.Gen.KernelIdeal
import proofs.«172715_j23656679867212_1_alg».proof.Proof.Gen.KernelIdeal.Frame
import proofs.«172715_j23656679867212_1_alg».proof.Proof.Gen.ReferenceIdeal
import proofs.«172715_j23656679867212_1_alg».proof.Proof.Gen.ReferenceIdeal.Run
import proofs.«172715_j23656679867212_1_alg».proof.Proof.Gen.Pre_finite_inputs
import proofs.«172715_j23656679867212_1_alg».proof.Proof.KernelRun
import proofs.«172715_j23656679867212_1_alg».proof.Proof.RefLinear
import Idealize.ShloMosaic.Adequacy
import Idealize.ShloMosaic.Init

noncomputable section

namespace Cert.Proof

open Idealize.ShloMosaic Idealize.SL.Sem

/-- The kernel as printed terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From memories that agree on `x`, `W` and `b`, both programs end with the pooling tail of `x · Wᵀ + b`. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
